-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x768 : Shape := ⟨2, ![8192, 768]⟩
abbrev S64x768 : Shape := ⟨2, ![64, 768]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel
  bcast_S_S64x768 : S_.BroadcastsInDim S64x768 (![] : Fin 0 → Fin S64x768.rank)
  reducesTo_S64x768_S_d0_1 : S64x768.ReducesTo [0, 1] S_

variable [Facts]

def fn_part1 {F : FTy → Type} [FloatOps F] (main_v13 : IVec S_ 1) (main_v16 : IVec S64x768 1) : IVec S_ 1 :=
  let main_c_5 : IVec S_ 1 := constantI S_ 1 1#1
  let main_v17 : IVec S_ 1 := (fun x v => Host.reduce IntOp.andi x v reducesTo_S64x768_S_d0_1 h_S_) main_v16 main_c_5
  let main_v18 : IVec S_ 1 := andi main_v13 main_v17
  main_v18

def fn {F : FTy → Type} [FloatOps F] (main_arg0 : FVec F S8192x768 .f32) (main_arg1 : FVec F S64x768 .f32) (main_arg2 : FVec F S64x768 .f32) (main_arg3 : FVec F S64x768 .f32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  let main_v9 : FVec F S64x768 .f32 := Host.absf main_arg2
  let main_cst_2 : FVec F S_ .f32 := constant S_ .f32 0x7F800000#32
  let main_v10 : FVec F S64x768 .f32 := broadcastInDim S64x768 ![] bcast_S_S64x768 main_cst_2
  let main_v11 : IVec S64x768 1 := cmpf .olt main_v9 main_v10
  let main_c_3 : IVec S_ 1 := constantI S_ 1 1#1
  let main_v12 : IVec S_ 1 := (fun x v => Host.reduce IntOp.andi x v reducesTo_S64x768_S_d0_1 h_S_) main_v11 main_c_3
  let main_v13 : IVec S_ 1 := andi main_v8 main_v12
  let main_v14 : FVec F S64x768 .f32 := Host.absf main_arg3
  let main_cst_4 : FVec F S_ .f32 := constant S_ .f32 0x7F800000#32
  let main_v15 : FVec F S64x768 .f32 := broadcastInDim S64x768 ![] bcast_S_S64x768 main_cst_4
  let main_v16 : IVec S64x768 1 := cmpf .olt main_v14 main_v15
  fn_part1 (F := F) main_v13 main_v16
-- ==== Kernel.lean ====
abbrev S8192x768 : Shape := ⟨2, ![8192, 768]⟩
abbrev S64x768 : Shape := ⟨2, ![64, 768]⟩
abbrev S8192x64 : Shape := ⟨2, ![8192, 64]⟩
abbrev S2048x768 : Shape := ⟨2, ![2048, 768]⟩
abbrev S2048x64 : Shape := ⟨2, ![2048, 64]⟩
abbrev S256x64 : Shape := ⟨2, ![256, 64]⟩
abbrev S256x8192 : Shape := ⟨2, ![256, 8192]⟩
abbrev S256 : Shape := ⟨1, ![256]⟩
abbrev S256x1 : Shape := ⟨2, ![256, 1]⟩

abbrev nBuf : Space → Nat
  | .hbm => 8
  | .vmem => 17
  | .smem => 0
  | _ => 0

abbrev bufTy : (tb : Table) → Fin (tcTables nBuf tb) → BufTy
  | .hbm, ⟨0, _⟩ => ⟨S8192x768, .f32⟩
  | .hbm, ⟨1, _⟩ => ⟨S64x768, .f32⟩
  | .hbm, ⟨2, _⟩ => ⟨S64x768, .f32⟩
  | .hbm, ⟨3, _⟩ => ⟨S64x768, .f32⟩
  | .hbm, ⟨4, _⟩ => ⟨S8192x64, .bf16⟩
  | .hbm, ⟨5, _⟩ => ⟨S8192x64, .bf16⟩
  | .hbm, ⟨6, _⟩ => ⟨S8192x64, .bf16⟩
  | .hbm, ⟨7, _⟩ => ⟨S8192x64, .f32⟩
  | .local _ .vmem, ⟨0, _⟩ => ⟨S2048x768, .f32⟩
  | .local _ .vmem, ⟨1, _⟩ => ⟨S2048x768, .f32⟩
  | .local _ .vmem, ⟨2, _⟩ => ⟨S64x768, .f32⟩
  | .local _ .vmem, ⟨3, _⟩ => ⟨S64x768, .f32⟩
  | .local _ .vmem, ⟨4, _⟩ => ⟨S64x768, .f32⟩
  | .local _ .vmem, ⟨5, _⟩ => ⟨S2048x64, .bf16⟩
  | .local _ .vmem, ⟨6, _⟩ => ⟨S2048x64, .bf16⟩
  | .local _ .vmem, ⟨7, _⟩ => ⟨S2048x64, .bf16⟩
  | .local _ .vmem, ⟨8, _⟩ => ⟨S2048x64, .bf16⟩
  | .local _ .vmem, ⟨9, _⟩ => ⟨S2048x64, .bf16⟩
  | .local _ .vmem, ⟨10, _⟩ => ⟨S2048x64, .bf16⟩
  | .local _ .vmem, ⟨11, _⟩ => ⟨S256x64, .bf16⟩
  | .local _ .vmem, ⟨12, _⟩ => ⟨S256x64, .bf16⟩
  | .local _ .vmem, ⟨13, _⟩ => ⟨S8192x64, .bf16⟩
  | .local _ .vmem, ⟨14, _⟩ => ⟨S8192x64, .bf16⟩
  | .local _ .vmem, ⟨15, _⟩ => ⟨S256x64, .f32⟩
  | .local _ .vmem, ⟨16, _⟩ => ⟨S256x64, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8192x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S2048x768_S2048x768_0_0 : ∀ a, (![0, 0] : Fin 2 → Nat) a + S2048x768.size a ≤ S2048x768.size a
  h_S2048x768 : 0 < S2048x768.numel
  bitsLt_bf16_f32 : FTy.bits .bf16 < FTy.bits .f32
  inb_S64x768_S64x768_0_0 : ∀ a, (![0, 0] : Fin 2 → Nat) a + S64x768.size a ≤ S64x768.size a
  h_S64x768 : 0 < S64x768.numel
  inb_S2048x64_S2048x64_0_0 : ∀ a, (![0, 0] : Fin 2 → Nat) a + S2048x64.size a ≤ S2048x64.size a
  h_S2048x64 : 0 < S2048x64.numel
  packedbf16_S2048x64_S2048x64_0_0 : (Rect.unit (s := S2048x64) ![0, 0] S2048x64.size inb_S2048x64_S2048x64_0_0).PackedRows (EltTy.packing .bf16)
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  reduces_S256x8192_S256 : S256x8192.Reduces [1] S256
  shapeCasts_S256_S256x1 : S256.ShapeCasts S256x1
  broadcasts_S256x1_S256x8192 : S256x1.Broadcasts S256x8192
  broadcasts_S256x1_S256x64 : S256x1.Broadcasts S256x64
  dot_S2048x768_S64x768_S2048x64_1_1_0_0_n_n_wf : DotDims.WF S2048x768 S64x768 S2048x64 [1] [1] [0] [0] [] []
  dot_S256x64_S8192x64_S256x8192_1_1_0_0_n_n_wf : DotDims.WF S256x64 S8192x64 S256x8192 [1] [1] [0] [0] [] []
  dot_S256x8192_S8192x64_S256x64_1_0_0_1_n_n_wf : DotDims.WF S256x8192 S8192x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S8192x768.size a
  hwx0_0 : ∀ i : grid0.Coords, EltTy.bits .f32 = 32 ∨ (Rect.block (s := S8192x768) S2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x768.size a ≤ S64x768.size a
  hwx0_1 : ∀ i : grid0.Coords, EltTy.bits .f32 = 32 ∨ (Rect.block (s := S64x768) S64x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x768.size a ≤ S64x768.size a
  hwx0_2 : ∀ i : grid0.Coords, EltTy.bits .f32 = 32 ∨ (Rect.block (s := S64x768) S64x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x768.size a ≤ S64x768.size a
  hwx0_3 : ∀ i : grid0.Coords, EltTy.bits .f32 = 32 ∨ (Rect.block (s := S64x768) S64x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x64.size a ≤ S8192x64.size a
  hwx0_4 : ∀ i : grid0.Coords, EltTy.bits .bf16 = 32 ∨ (Rect.block (s := S8192x64) S2048x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x64.size a ≤ S8192x64.size a
  hwx0_5 : ∀ i : grid0.Coords, EltTy.bits .bf16 = 32 ∨ (Rect.block (s := S8192x64) S2048x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x64.size a ≤ S8192x64.size a
  hwx0_6 : ∀ i : grid0.Coords, EltTy.bits .bf16 = 32 ∨ (Rect.block (s := S8192x64) S2048x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x64.size a ≤ S8192x64.size a
  hwx1_0 : ∀ i : grid1.Coords, EltTy.bits .bf16 = 32 ∨ (Rect.block (s := S8192x64) S256x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S8192x64.size a
  hwx1_1 : ∀ i : grid1.Coords, EltTy.bits .bf16 = 32 ∨ (Rect.block (s := S8192x64) S8192x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S8192x64.size a
  hwx1_2 : ∀ i : grid1.Coords, EltTy.bits .bf16 = 32 ∨ (Rect.block (s := S8192x64) S8192x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S8192x64.size a
  hwx1_3 : ∀ i : grid1.Coords, EltTy.bits .f32 = 32 ∨ (Rect.block (s := S8192x64) S256x64.size (cc1_transform_3 i) (hinb1_3 i)).WholeWords (EltTy.packing .f32)

variable [Facts₀]

def dot_S2048x768_S64x768_S2048x64_1_1_0_0_n_n : DotDims S2048x768 S64x768 S2048x64 where
  lhsContracting := [1]
  rhsContracting := [1]
  lhsNonContracting := [0]
  rhsNonContracting := [0]
  lhsBatch := []
  rhsBatch := []
  wf := dot_S2048x768_S64x768_S2048x64_1_1_0_0_n_n_wf
def dot_S256x64_S8192x64_S256x8192_1_1_0_0_n_n : DotDims S256x64 S8192x64 S256x8192 where
  lhsContracting := [1]
  rhsContracting := [1]
  lhsNonContracting := [0]
  rhsNonContracting := [0]
  lhsBatch := []
  rhsBatch := []
  wf := dot_S256x64_S8192x64_S256x8192_1_1_0_0_n_n_wf
def dot_S256x8192_S8192x64_S256x64_1_0_0_1_n_n : DotDims S256x8192 S8192x64 S256x64 where
  lhsContracting := [1]
  rhsContracting := [0]
  lhsNonContracting := [0]
  rhsNonContracting := [1]
  lhsBatch := []
  rhsBatch := []
  wf := dot_S256x8192_S8192x64_S256x64_1_0_0_1_n_n_wf

abbrev win0_0 : Pipeline.Window sig grid0 :=
  Pipeline.Window.ofSpec (Memref.whole main_arg0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S2048x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S2048x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S2048x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_0) S256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S8192x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S8192x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S256x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x768 : Shape := ⟨2, ![8192, 768]⟩
abbrev S64x768 : Shape := ⟨2, ![64, 768]⟩
abbrev S768x64 : Shape := ⟨2, ![768, 64]⟩
abbrev S8192x64 : Shape := ⟨2, ![8192, 64]⟩
abbrev S64x8192 : Shape := ⟨2, ![64, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 31
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S64x768, .f32⟩
  | .hbm, ⟨2, _⟩ => ⟨S64x768, .f32⟩
  | .hbm, ⟨3, _⟩ => ⟨S64x768, .f32⟩
  | .hbm, ⟨4, _⟩ => ⟨S768x64, .f32⟩
  | .hbm, ⟨5, _⟩ => ⟨S8192x64, .f32⟩
  | .hbm, ⟨6, _⟩ => ⟨S768x64, .f32⟩
  | .hbm, ⟨7, _⟩ => ⟨S8192x64, .f32⟩
  | .hbm, ⟨8, _⟩ => ⟨S768x64, .f32⟩
  | .hbm, ⟨9, _⟩ => ⟨S8192x64, .f32⟩
  | .hbm, ⟨10, _⟩ => ⟨S64x8192, .f32⟩
  | .hbm, ⟨11, _⟩ => ⟨S8192x8192, .f32⟩
  | .hbm, ⟨12, _⟩ => ⟨S_, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S8192x1, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x8192, .f32⟩
  | .hbm, ⟨29, _⟩ => ⟨S8192x8192, .f32⟩
  | .hbm, ⟨30, _⟩ => ⟨S8192x64, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  transposes_S64x768_S768x64_1_0 : S64x768.Transposes [1, 0] S768x64
  transposes_S8192x64_S64x8192_1_0 : S8192x64.Transposes [1, 0] S64x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x768_S768x64_S8192x64_1_0_0_1_n_n_wf : DotDims.WF S8192x768 S768x64 S8192x64 [1] [0] [0] [1] [] []
  dot_S8192x64_S64x8192_S8192x8192_1_0_0_1_n_n_wf : DotDims.WF S8192x64 S64x8192 S8192x8192 [1] [0] [0] [1] [] []
  dot_S8192x8192_S8192x64_S8192x64_1_0_0_1_n_n_wf : DotDims.WF S8192x8192 S8192x64 S8192x64 [1] [0] [0] [1] [] []

variable [Facts₀]

def dot_S8192x768_S768x64_S8192x64_1_0_0_1_n_n : DotDims S8192x768 S768x64 S8192x64 where
  lhsContracting := [1]
  rhsContracting := [0]
  lhsNonContracting := [0]
  rhsNonContracting := [1]
  lhsBatch := []
  rhsBatch := []
  wf := dot_S8192x768_S768x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.KernelRun.lean ====
/-
  The idealized kernel's run, with its RESULT named.

  @main is two launches in a row: the projection (Q, K, V from x and the three weight matrices) and the attention
  (the output from Q, K, V). The buffer contents after the second launch are a fold: the launch memory, with the first
  launch's arrays at what its write-backs leave, then the second's at what its write-backs leave. Every weakly fair
  execution ends with every buffer outside a launch's scope at that fold — so the result array ends at the fold's
  value there, and the four arguments, which no launch writes, end as they began.
-/
import proofs.«158693_j26431228739824_2_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the contents the two
    launches leave there and the four argument arrays as launched. -/
theorem run : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

end Cert.KernelIdeal.Out

end
-- ==== Proof.Spec.lean ====
/-
  What both programs compute, as ONE function of the four argument arrays, entry by entry.

  x is 8192 × 768; each weight matrix W is 64 × 768. The projections are  Q = x · W_Qᵀ,  K = x · W_Kᵀ,  V = x · W_Vᵀ
  (8192 × 64 each). For query row i the score against key row j is  s_j = (Σ_c Q(i, c) · K(j, c)) · 0.125,  the row's
  maximum M is folded from −∞ over the 8192 keys, the weights are  e_j = exp (s_j − M),  and

      out(i, d) = (Σ_j e_j · V(j, d)) / (Σ_j e_j).
-/
import Idealize.ShloMosaic.PureOps.Ideal
import Idealize.ShloMosaic.Lib.ValueIdx

noncomputable section

namespace Cert.Attn

open Idealize.ShloMosaic Idealize.ShloMosaic.ValueIdx

/-- The shape of x. -/
abbrev Sx : Shape := ⟨2, ![8192, 768]⟩
/-- The shape of a weight matrix. -/
abbrev Sw : Shape := ⟨2, ![64, 768]⟩
/-- The shape of Q, K, V and of the output. -/
abbrev So : Shape := ⟨2, ![8192, 64]⟩

/-- The product x · Wᵀ: entry (i, c) is the sum over the 768 features of x(i, k) · W(c, k). -/
def proj (x : Sx.Idx → EReal) (w : Sw.Idx → EReal) : So.Idx → EReal :=
  fun i => ∑ k : Fin 768, x (ix2 (i 0) k) * w (ix2 (i 1) k)

/-- The scaled score of a query row against key row j. -/
def score (qrow : Fin 64 → EReal) (K : So.Idx → EReal) (j : Fin 8192) : EReal :=
  (∑ c : Fin 64, qrow c * K (ix2 j c)) * Ideal.ofBits .f32 0x3E000000#32

/-- The largest score of the row, folded from −∞. -/
def rowMax (qrow : Fin 64 → EReal) (K : So.Idx → EReal) : EReal :=
  (Finset.univ : Finset (Fin 8192)).fold max (Ideal.ofBits .f32 0xFF800000#32) (score qrow K)

/-- The unnormalised softmax weight of key row j. -/
def weight (qrow : Fin 64 → EReal) (K : So.Idx → EReal) (j : Fin 8192) : EReal :=
  Ideal.exp (score qrow K j - rowMax qrow K)

/-- One output entry: the weighted sum of column d of V, divided once by the sum of the weights. -/
def attnRow (qrow : Fin 64 → EReal) (K V : So.Idx → EReal) (d : Fin 64) : EReal :=
  Ideal.div (∑ j : Fin 8192, weight qrow K j * V (ix2 j d)) (∑ j : Fin 8192, weight qrow K j)

/-- Attention of Q against K and V, whole. -/
def attn (Q K V : So.Idx → EReal) : So.Idx → EReal :=
  fun i => attnRow (fun c => Q (ix2 (i 0) c)) K V (i 1)

/-- The whole computation from the four arguments. -/
def spec (x : Sx.Idx → EReal) (wq wk wv : Sw.Idx → EReal) : So.Idx → EReal :=
  attn (proj x wq) (proj x wk) (proj x wv)

end Cert.Attn

end
-- ==== Proof.AttnBody.lean ====
/-
  What the attention body computes, entry by entry.

  The body loads a block of 256 query rows q and the whole K and V (8192 × 64 each). It forms the scores
  q · Kᵀ (256 × 8192), scales them by 0.125, takes each row's maximum (folded from −∞), subtracts it, exponentiates,
  sums each row, multiplies the exponentials by V (256 × 64) and divides each row of that product by the row's sum.
  The casts to the same shape, the keepdims column casts and broadcasts, and the rounding to bf16 move or copy entries
  without changing them. So entry (p, d) of what it stores is the attention row of query row p, at column d.
-/
import proofs.«158693_j26431228739824_2_alg».proof.Proof.Gen.KernelIdeal.Skeleton
import proofs.«158693_j26431228739824_2_alg».proof.Proof.Spec
import Idealize.ShloMosaic.Lib.ValueIdx
import Idealize.ShloMosaic.Lib.Pipeline.Value
import Idealize.ShloMosaic.PureOps.Ideal.Laws

noncomputable section

namespace Cert.KernelIdeal.Out

open Cert.KernelIdeal Cert.KernelIdeal.Gen Idealize.ShloMosaic Idealize.ShloMosaic.ValueIdx
open Cert.Attn (score rowMax weight attnRow)

/-! ## The two products -/

theorem qkDot_lhs0 (i : S256x8192.Idx) (q : dot_S256x64_S8192x64_S256x8192_1_1_0_0_n_n.contr.Idx) :
    (dot_S256x64_S8192x64_S256x8192_1_1_0_0_n_n.lhsIdx i q 0).val = (i 0).val := by
  unfold DotDims.lhsIdx
  rw [dif_neg (show ¬(0 : Fin S256x64.rank) ∈ dot_S256x64_S8192x64_S256x8192_1_1_0_0_n_n.lhsBatch by decide),
    dif_pos (show (0 : Fin S256x64.rank) ∈ dot_S256x64_S8192x64_S256x8192_1_1_0_0_n_n.lhsNonContracting by decide)]
  rfl
theorem qkDot_lhs1 (i : S256x8192.Idx) (q : dot_S256x64_S8192x64_S256x8192_1_1_0_0_n_n.contr.Idx) :
    (dot_S256x64_S8192x64_S256x8192_1_1_0_0_n_n.lhsIdx i q 1).val = (q ⟨0, by decide⟩).val :=
  dot_S256x64_S8192x64_S256x8192_1_1_0_0_n_n.lhsIdx_val_of_single rfl i q
theorem qkDot_rhs0 (i : S256x8192.Idx) (q : dot_S256x64_S8192x64_S256x8192_1_1_0_0_n_n.contr.Idx) :
    (dot_S256x64_S8192x64_S256x8192_1_1_0_0_n_n.rhsIdx i q 0).val = (i 1).val := by
  unfold DotDims.rhsIdx
  rw [dif_neg (show ¬(0 : Fin S8192x64.rank) ∈ dot_S256x64_S8192x64_S256x8192_1_1_0_0_n_n.rhsBatch by decide),
    dif_pos (show (0 : Fin S8192x64.rank) ∈ dot_S256x64_S8192x64_S256x8192_1_1_0_0_n_n.rhsNonContracting by decide)]
  rfl
theorem qkDot_rhs1 (i : S256x8192.Idx) (q : dot_S256x64_S8192x64_S256x8192_1_1_0_0_n_n.contr.Idx) :
    (dot_S256x64_S8192x64_S256x8192_1_1_0_0_n_n.rhsIdx i q 1).val = (q ⟨0, by decide⟩).val :=
  dot_S256x64_S8192x64_S256x8192_1_1_0_0_n_n.rhsIdx_val_of_single rfl i q

/-- Entry (p, j) of q · Kᵀ into a zero accumulator: the sum over the 64 head features of q(p, c) · K(j, c). -/
theorem qkDot_apply (q : FVec Ideal S256x64 .bf16) (K : FVec Ideal S8192x64 .bf16) (p : Fin 256) (j : Fin 8192) :
    matmul dot_S256x64_S8192x64_S256x8192_1_1_0_0_n_n none q K (constant S256x8192 .f32 0x00000000#32) (ix2 p j)
      = ∑ c : Fin 64, q (ix2 p c) * K (ix2 j c) := by
  simp only [matmul]
  rw [Ideal.matmul_constant_zero_apply,
    ← Equiv.sum_comp (ValueIdx.contrEquiv1 dot_S256x64_S8192x64_S256x8192_1_1_0_0_n_n 64 rfl rfl).symm]
  refine Finset.sum_congr rfl fun k _ => ?_
  have hk := ValueIdx.contrEquiv1_symm_val dot_S256x64_S8192x64_S256x8192_1_1_0_0_n_n 64 rfl rfl k
  have el : dot_S256x64_S8192x64_S256x8192_1_1_0_0_n_n.lhsIdx (ix2 p j)
      ((ValueIdx.contrEquiv1 dot_S256x64_S8192x64_S256x8192_1_1_0_0_n_n 64 rfl rfl).symm k) = ix2 p k :=
    funext fun a => Fin.ext (by
      match a with
      | ⟨0, _⟩ => exact qkDot_lhs0 _ _
      | ⟨1, _⟩ => exact (qkDot_lhs1 _ _).trans hk)
  have er : dot_S256x64_S8192x64_S256x8192_1_1_0_0_n_n.rhsIdx (ix2 p j)
      ((ValueIdx.contrEquiv1 dot_S256x64_S8192x64_S256x8192_1_1_0_0_n_n 64 rfl rfl).symm k) = ix2 j k :=
    funext fun a => Fin.ext (by
      match a with
      | ⟨0, _⟩ => exact qkDot_rhs0 _ _
      | ⟨1, _⟩ => exact (qkDot_rhs1 _ _).trans hk)
  rw [el, er]

theorem pvDot_lhs0 (i : S256x64.Idx) (q : dot_S256x8192_S8192x64_S256x64_1_0_0_1_n_n.contr.Idx) :
    (dot_S256x8192_S8192x64_S256x64_1_0_0_1_n_n.lhsIdx i q 0).val = (i 0).val := by
  unfold DotDims.lhsIdx
  rw [dif_neg (show ¬(0 : Fin S256x8192.rank) ∈ dot_S256x8192_S8192x64_S256x64_1_0_0_1_n_n.lhsBatch by decide),
    dif_pos (show (0 : Fin S256x8192.rank) ∈ dot_S256x8192_S8192x64_S256x64_1_0_0_1_n_n.lhsNonContracting by decide)]
  rfl
theorem pvDot_lhs1 (i : S256x64.Idx) (q : dot_S256x8192_S8192x64_S256x64_1_0_0_1_n_n.contr.Idx) :
    (dot_S256x8192_S8192x64_S256x64_1_0_0_1_n_n.lhsIdx i q 1).val = (q ⟨0, by decide⟩).val :=
  dot_S256x8192_S8192x64_S256x64_1_0_0_1_n_n.lhsIdx_val_of_single rfl i q
theorem pvDot_rhs0 (i : S256x64.Idx) (q : dot_S256x8192_S8192x64_S256x64_1_0_0_1_n_n.contr.Idx) :
    (dot_S256x8192_S8192x64_S256x64_1_0_0_1_n_n.rhsIdx i q 0).val = (q ⟨0, by decide⟩).val :=
  dot_S256x8192_S8192x64_S256x64_1_0_0_1_n_n.rhsIdx_val_of_single rfl i q
theorem pvDot_rhs1 (i : S256x64.Idx) (q : dot_S256x8192_S8192x64_S256x64_1_0_0_1_n_n.contr.Idx) :
    (dot_S256x8192_S8192x64_S256x64_1_0_0_1_n_n.rhsIdx i q 1).val = (i 1).val := by
  unfold DotDims.rhsIdx
  rw [dif_neg (show ¬(1 : Fin S8192x64.rank) ∈ dot_S256x8192_S8192x64_S256x64_1_0_0_1_n_n.rhsBatch by decide),
    dif_pos (show (1 : Fin S8192x64.rank) ∈ dot_S256x8192_S8192x64_S256x64_1_0_0_1_n_n.rhsNonContracting by decide)]
  rfl

/-- Entry (p, d) of e · V into a zero accumulator: the sum over the 8192 keys of e(p, j) · V(j, d). -/
theorem pvDot_apply (e : FVec Ideal S256x8192 .bf16) (V : FVec Ideal S8192x64 .bf16) (p : Fin 256) (d : Fin 64) :
    matmul dot_S256x8192_S8192x64_S256x64_1_0_0_1_n_n none e V (constant S256x64 .f32 0x00000000#32) (ix2 p d)
      = ∑ j : Fin 8192, e (ix2 p j) * V (ix2 j d) := by
  simp only [matmul]
  rw [Ideal.matmul_constant_zero_apply,
    ← Equiv.sum_comp (ValueIdx.contrEquiv1 dot_S256x8192_S8192x64_S256x64_1_0_0_1_n_n 8192 rfl rfl).symm]
  refine Finset.sum_congr rfl fun k _ => ?_
  have hk := ValueIdx.contrEquiv1_symm_val dot_S256x8192_S8192x64_S256x64_1_0_0_1_n_n 8192 rfl rfl k
  have el : dot_S256x8192_S8192x64_S256x64_1_0_0_1_n_n.lhsIdx (ix2 p d)
      ((ValueIdx.contrEquiv1 dot_S256x8192_S8192x64_S256x64_1_0_0_1_n_n 8192 rfl rfl).symm k) = ix2 p k :=
    funext fun a => Fin.ext (by
      match a with
      | ⟨0, _⟩ => exact pvDot_lhs0 _ _
      | ⟨1, _⟩ => exact (pvDot_lhs1 _ _).trans hk)
  have er : dot_S256x8192_S8192x64_S256x64_1_0_0_1_n_n.rhsIdx (ix2 p d)
      ((ValueIdx.contrEquiv1 dot_S256x8192_S8192x64_S256x64_1_0_0_1_n_n 8192 rfl rfl).symm k) = ix2 k d :=
    funext fun a => Fin.ext (by
      match a with
      | ⟨0, _⟩ => exact (pvDot_rhs0 _ _).trans hk
      | ⟨1, _⟩ => exact pvDot_rhs1 _ _)
  rw [el, er]

/-! ## A row's reduction, kept as a column and spread back over the row -/

/-- The column index (p, 0) of a 256 × 1 vector sits at the row-major position of p in the 256-vector. -/
theorem col_pos (p : Fin 256) : (S256.rowMajor (ix1 p)).val = (S256x1.rowMajor (ix2 p (0 : Fin 1))).val := by
  rw [Shape.rowMajor_val_one, Shape.rowMajor_val_two]
  show p.val = p.val * 1 + 0
  omega

/-- A 256-vector cast to a column and broadcast along the 8192 keys, read at (p, j): the vector at p. -/
theorem spread_keys (v : FVec Ideal S256 .f32) (p : Fin 256) (j : Fin 8192) :
    broadcastTo S256x8192 (shapeCast S256x1 v shapeCasts_S256_S256x1) broadcasts_S256x1_S256x8192 (ix2 p j) = v (ix1 p) :=
  (broadcastTo_apply _ broadcasts_S256x1_S256x8192 (ix2 p j) (ix2 p (0 : Fin 1))
      (fun a => match a with | ⟨0, _⟩ => rfl | ⟨1, _⟩ => rfl)).trans
    (shapeCast_apply v shapeCasts_S256_S256x1 (ix2 p (0 : Fin 1)) (ix1 p) (col_pos p))

/-- The same along the 64 output columns. -/
theorem spread_cols (v : FVec Ideal S256 .f32) (p : Fin 256) (d : Fin 64) :
    broadcastTo S256x64 (shapeCast S256x1 v shapeCasts_S256_S256x1) broadcasts_S256x1_S256x64 (ix2 p d) = v (ix1 p) :=
  (broadcastTo_apply _ broadcasts_S256x1_S256x64 (ix2 p d) (ix2 p (0 : Fin 1))
      (fun a => match a with | ⟨0, _⟩ => rfl | ⟨1, _⟩ => rfl)).trans
    (shapeCast_apply v shapeCasts_S256_S256x1 (ix2 p (0 : Fin 1)) (ix1 p) (col_pos p))

/-- Row p's maximum over the 8192 keys, folded from the accumulator's −∞. -/
theorem rowMax_apply (s : FVec Ideal S256x8192 .f32) (hφ : FKind.Formats .f32)
    (hacc : (0xFF800000#32 : BitVec 32) = FKind.maximumf.neutral .f32 hφ) (p : Fin 256) :
    multiReduction .maximumf [1] S256 s 0xFF800000#32 reduces_S256x8192_S256 hφ hacc (ix1 p)
      = (Finset.univ : Finset (Fin 8192)).fold max (Ideal.ofBits .f32 0xFF800000#32) (fun k => s (ix2 p k)) := by
  refine (Ideal.multiReduction_maximumf_single s 0xFF800000#32 reduces_S256x8192_S256 hφ hacc (ix1 p)).trans ?_
  refine congrArg (fun f => (Finset.univ : Finset (Fin 8192)).fold max (Ideal.ofBits .f32 0xFF800000#32) f) ?_
  funext k
  exact congrArg s (funext fun a => Fin.ext (by
    match a with
    | ⟨0, _⟩ => rfl
    | ⟨1, _⟩ => rfl))

/-- Row p's sum over the 8192 keys. -/
theorem rowSum_apply (e : FVec Ideal S256x8192 .f32) (hφ : FKind.Formats .f32)
    (hacc : (0x00000000#32 : BitVec 32) = FKind.add.neutral .f32 hφ) (p : Fin 256) :
    multiReduction .add [1] S256 e 0x00000000#32 reduces_S256x8192_S256 hφ hacc (ix1 p)
      = ∑ k : Fin 8192, e (ix2 p k) := by
  refine (Ideal.multiReduction_add_single e 0x00000000#32 reduces_S256x8192_S256 hφ hacc (ix1 p)).trans ?_
  refine Finset.sum_congr rfl fun k _ => ?_
  exact congrArg e (funext fun a => Fin.ext (by
    match a with
    | ⟨0, _⟩ => rfl
    | ⟨1, _⟩ => rfl))

/-! ## The body's stages as vectors, and the stored entry -/

/-- The scaled scores of the block's 256 query rows against all keys. -/
def scores (q : FVec Ideal S256x64 .bf16) (K : FVec Ideal S8192x64 .bf16) : FVec Ideal S256x8192 .f32 :=
  mulf (matmul dot_S256x64_S8192x64_S256x8192_1_1_0_0_n_n none q K (constant S256x8192 .f32 0x00000000#32))
    (broadcast S256x8192 (Scalar.ofBits .f32 0x3E000000#32))

/-- Each row's maximum, spread back over the row. -/
def rowMaxes (s : FVec Ideal S256x8192 .f32) : FVec Ideal S256x8192 .f32 :=
  broadcastTo S256x8192 (shapeCast S256x1
    (multiReduction .maximumf [1] S256 s 0xFF800000#32 reduces_S256x8192_S256 (.inl rfl) rfl) shapeCasts_S256_S256x1)
    broadcasts_S256x1_S256x8192

/-- The exponentials of the scores less their row's maximum. -/
def weights (s : FVec Ideal S256x8192 .f32) : FVec Ideal S256x8192 .f32 := exp (subf s (rowMaxes s))

/-- Each row's sum of weights, spread over the 64 output columns. -/
def rowSums (e : FVec Ideal S256x8192 .f32) : FVec Ideal S256x64 .f32 :=
  broadcastTo S256x64 (shapeCast S256x1
    (multiReduction .add [1] S256 e 0x00000000#32 reduces_S256x8192_S256 (.inl rfl) rfl) shapeCasts_S256_S256x1)
    broadcasts_S256x1_S256x64

/-- The body's stored vector is these stages composed (the same-shape casts dropped). -/
theorem pay_stages (q : FVec Ideal S256x64 .bf16) (K V : FVec Ideal S8192x64 .bf16) :
    k1_pay1 q K V = divf (matmul dot_S256x8192_S8192x64_S256x64_1_0_0_1_n_n none
        (truncf .bf16 (weights (scores q K)) bitsLt_bf16_f32) V (constant S256x64 .f32 0x00000000#32))
      (rowSums (weights (scores q K))) := by
  unfold k1_pay1 scores weights rowMaxes rowSums
  simp only [shapeCast_self]

theorem scores_apply (q : FVec Ideal S256x64 .bf16) (K : FVec Ideal S8192x64 .bf16) (p : Fin 256) (j : Fin 8192) :
    scores q K (ix2 p j) = score (fun c => q (ix2 p c)) K j :=
  congrArg (· * Ideal.ofBits .f32 0x3E000000#32) (qkDot_apply q K p j)

theorem weights_apply (q : FVec Ideal S256x64 .bf16) (K : FVec Ideal S8192x64 .bf16) (p : Fin 256) (j : Fin 8192) :
    weights (scores q K) (ix2 p j) = weight (fun c => q (ix2 p c)) K j := by
  show Ideal.exp (scores q K (ix2 p j) - rowMaxes (scores q K) (ix2 p j)) = _
  unfold weight rowMax
  have hm : rowMaxes (scores q K) (ix2 p j)
      = (Finset.univ : Finset (Fin 8192)).fold max (Ideal.ofBits .f32 0xFF800000#32) (score (fun c => q (ix2 p c)) K) :=
    ((spread_keys _ p j).trans (rowMax_apply (scores q K) (.inl rfl) rfl p)).trans
      (congrArg (fun f => (Finset.univ : Finset (Fin 8192)).fold max (Ideal.ofBits .f32 0xFF800000#32) f)
        (funext fun k => scores_apply q K p k))
  rw [hm, scores_apply]

/-- THE STORED ENTRY: entry (p, d) of the block is the attention row of query row p at column d. -/
theorem payAttn_apply (q : FVec Ideal S256x64 .bf16) (K V : FVec Ideal S8192x64 .bf16) (p : Fin 256) (d : Fin 64) :
    k1_pay1 (F := Ideal) q K V (ix2 p d) = attnRow (fun c => q (ix2 p c)) K V d := by
  rw [pay_stages]
  show Ideal.div (matmul dot_S256x8192_S8192x64_S256x64_1_0_0_1_n_n none
      (truncf .bf16 (weights (scores q K)) bitsLt_bf16_f32) V (constant S256x64 .f32 0x00000000#32) (ix2 p d))
    (rowSums (weights (scores q K)) (ix2 p d)) = _
  unfold attnRow
  have hnum : matmul dot_S256x8192_S8192x64_S256x64_1_0_0_1_n_n none
      (truncf .bf16 (weights (scores q K)) bitsLt_bf16_f32) V (constant S256x64 .f32 0x00000000#32) (ix2 p d)
      = ∑ j : Fin 8192, weight (fun c => q (ix2 p c)) K j * V (ix2 j d) :=
    (pvDot_apply _ V p d).trans (Finset.sum_congr rfl fun j _ => congrArg (· * V (ix2 j d)) (weights_apply q K p j))
  have hden : rowSums (weights (scores q K)) (ix2 p d) = ∑ j : Fin 8192, weight (fun c => q (ix2 p c)) K j :=
    ((spread_cols _ p d).trans (rowSum_apply (weights (scores q K)) (.inl rfl) rfl p)).trans
      (Finset.sum_congr rfl fun j _ => weights_apply q K p j)
  rw [hnum, hden]

end Cert.KernelIdeal.Out

end
-- ==== Proof.ProjBody.lean ====
/-
  What the projection body computes, entry by entry.

  The body loads a block of 2048 rows of x and one whole weight matrix W (64 × 768), rounds both to bf16 (the identity
  on extended reals), multiplies x by Wᵀ into a zero accumulator and rounds the product to bf16 (the identity again).
  So entry (p, q) of what it stores is  Σ_k x(p, k) · W(q, k),  the sum over the 768 input features.
-/
import proofs.«158693_j26431228739824_2_alg».proof.Proof.Gen.KernelIdeal.Skeleton
import Idealize.ShloMosaic.Lib.ValueIdx
import Idealize.ShloMosaic.PureOps.Ideal.Laws

noncomputable section

namespace Cert.KernelIdeal.Out

open Cert.KernelIdeal Cert.KernelIdeal.Gen Idealize.ShloMosaic Idealize.ShloMosaic.ValueIdx

theorem projDot_lhs0 (i : S2048x64.Idx) (q : dot_S2048x768_S64x768_S2048x64_1_1_0_0_n_n.contr.Idx) :
    (dot_S2048x768_S64x768_S2048x64_1_1_0_0_n_n.lhsIdx i q 0).val = (i 0).val := by
  unfold DotDims.lhsIdx
  rw [dif_neg (show ¬(0 : Fin S2048x768.rank) ∈ dot_S2048x768_S64x768_S2048x64_1_1_0_0_n_n.lhsBatch by decide),
    dif_pos (show (0 : Fin S2048x768.rank) ∈ dot_S2048x768_S64x768_S2048x64_1_1_0_0_n_n.lhsNonContracting by decide)]
  rfl
theorem projDot_lhs1 (i : S2048x64.Idx) (q : dot_S2048x768_S64x768_S2048x64_1_1_0_0_n_n.contr.Idx) :
    (dot_S2048x768_S64x768_S2048x64_1_1_0_0_n_n.lhsIdx i q 1).val = (q ⟨0, by decide⟩).val :=
  dot_S2048x768_S64x768_S2048x64_1_1_0_0_n_n.lhsIdx_val_of_single rfl i q
theorem projDot_rhs0 (i : S2048x64.Idx) (q : dot_S2048x768_S64x768_S2048x64_1_1_0_0_n_n.contr.Idx) :
    (dot_S2048x768_S64x768_S2048x64_1_1_0_0_n_n.rhsIdx i q 0).val = (i 1).val := by
  unfold DotDims.rhsIdx
  rw [dif_neg (show ¬(0 : Fin S64x768.rank) ∈ dot_S2048x768_S64x768_S2048x64_1_1_0_0_n_n.rhsBatch by decide),
    dif_pos (show (0 : Fin S64x768.rank) ∈ dot_S2048x768_S64x768_S2048x64_1_1_0_0_n_n.rhsNonContracting by decide)]
  rfl
theorem projDot_rhs1 (i : S2048x64.Idx) (q : dot_S2048x768_S64x768_S2048x64_1_1_0_0_n_n.contr.Idx) :
    (dot_S2048x768_S64x768_S2048x64_1_1_0_0_n_n.rhsIdx i q 1).val = (q ⟨0, by decide⟩).val :=
  dot_S2048x768_S64x768_S2048x64_1_1_0_0_n_n.rhsIdx_val_of_single rfl i q

/-- Entry (p, q) of a block of rows times the transposed weights, into a zero accumulator: the sum over the 768
    contracted features of the row's entry times the weight row's entry. -/
theorem projDot_apply (x0 : FVec Ideal S2048x768 .bf16) (w0 : FVec Ideal S64x768 .bf16) (p : Fin 2048) (q : Fin 64) :
    matmul dot_S2048x768_S64x768_S2048x64_1_1_0_0_n_n none x0 w0 (constant S2048x64 .f32 0x00000000#32) (ix2 p q)
      = ∑ k : Fin 768, x0 (ix2 p k) * w0 (ix2 q k) := by
  simp only [matmul]
  rw [Ideal.matmul_constant_zero_apply,
    ← Equiv.sum_comp (ValueIdx.contrEquiv1 dot_S2048x768_S64x768_S2048x64_1_1_0_0_n_n 768 rfl rfl).symm]
  refine Finset.sum_congr rfl fun k _ => ?_
  have hk := ValueIdx.contrEquiv1_symm_val dot_S2048x768_S64x768_S2048x64_1_1_0_0_n_n 768 rfl rfl k
  have el : dot_S2048x768_S64x768_S2048x64_1_1_0_0_n_n.lhsIdx (ix2 p q)
      ((ValueIdx.contrEquiv1 dot_S2048x768_S64x768_S2048x64_1_1_0_0_n_n 768 rfl rfl).symm k) = ix2 p k :=
    funext fun a => Fin.ext (by
      match a with
      | ⟨0, _⟩ => exact projDot_lhs0 _ _
      | ⟨1, _⟩ => exact (projDot_lhs1 _ _).trans hk)
  have er : dot_S2048x768_S64x768_S2048x64_1_1_0_0_n_n.rhsIdx (ix2 p q)
      ((ValueIdx.contrEquiv1 dot_S2048x768_S64x768_S2048x64_1_1_0_0_n_n 768 rfl rfl).symm k) = ix2 q k :=
    funext fun a => Fin.ext (by
      match a with
      | ⟨0, _⟩ => exact projDot_rhs0 _ _
      | ⟨1, _⟩ => exact (projDot_rhs1 _ _).trans hk)
  rw [el, er]

/-- The stored Q block: both roundings to bf16 are the identity, so it is the product above. -/
theorem payQ_apply (x0 : Vec Ideal S2048x768 .f32) (w0 : Vec Ideal S64x768 .f32) (p : Fin 2048) (q : Fin 64) :
    k0_pay2 x0 w0 (ix2 p q) = ∑ k : Fin 768, x0 (ix2 p k) * w0 (ix2 q k) :=
  projDot_apply x0 w0 p q
/-- The stored K block likewise, from the second weight matrix. -/
theorem payK_apply (x0 : Vec Ideal S2048x768 .f32) (w0 : Vec Ideal S64x768 .f32) (p : Fin 2048) (q : Fin 64) :
    k0_pay3 x0 w0 (ix2 p q) = ∑ k : Fin 768, x0 (ix2 p k) * w0 (ix2 q k) :=
  projDot_apply x0 w0 p q
/-- The stored V block likewise, from the third. -/
theorem payV_apply (x0 : Vec Ideal S2048x768 .f32) (w0 : Vec Ideal S64x768 .f32) (p : Fin 2048) (q : Fin 64) :
    k0_pay4 x0 w0 (ix2 p q) = ∑ k : Fin 768, x0 (ix2 p k) * w0 (ix2 q k) :=
  projDot_apply x0 w0 p q

end Cert.KernelIdeal.Out

end
-- ==== Proof.Projection.lean ====
/-
  The first launch, whole: Q, K and V as functions of x and the three weight matrices.

  The launch has four grid points; point t handles rows 2048·t … 2048·t + 2047 of x, with each weight matrix whole,
  and writes back rows 2048·t … of Q, of K and of V. Entry (p, q) of a written block is Σ_k x(2048·t + p, k) · W(q, k),
  so the block is the restriction of the whole product x · Wᵀ; the four blocks tile the 8192 rows, so each array ends
  as the whole product.
-/
import proofs.«158693_j26431228739824_2_alg».proof.Proof.Gen.KernelIdeal.Frame
import proofs.«158693_j26431228739824_2_alg».proof.Proof.ProjBody
import proofs.«158693_j26431228739824_2_alg».proof.Proof.Spec
import Idealize.ShloMosaic.Lib.Pipeline.Value

set_option maxRecDepth 16384

noncomputable section

namespace Cert.KernelIdeal.Out

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Attn (proj)

theorem zero_offsets : (![0, 0] : Fin 2 → Nat) = fun _ => 0 := funext fun a => by fin_cases a <;> rfl

/-- A stored entry is the whole product's entry, once the loaded row of x is the array's row and the loaded weight
    row is the array's weight row. -/
theorem projEntry (pay : Vec Ideal S2048x768 .f32 → Vec Ideal S64x768 .f32 → FVec Ideal S2048x64 .bf16)
    (hpay : ∀ x0 w0 (p : Fin 2048) (q : Fin 64), pay x0 w0 (ix2 p q) = ∑ k : Fin 768, x0 (ix2 p k) * w0 (ix2 q k))
    (X : S8192x768.Idx → EReal) (W : S64x768.Idx → EReal)
    (x0 : Vec Ideal S2048x768 .f32) (w0 : Vec Ideal S64x768 .f32) (j : S2048x64.Idx) (i : S8192x64.Idx)
    (hx : ∀ k : Fin 768, x0 (ix2 (j 0) k) = X (ix2 (i 0) k)) (hw : ∀ k : Fin 768, w0 (ix2 (j 1) k) = W (ix2 (i 1) k)) :
    pay x0 w0 j = proj X W i := by
  obtain ⟨p, q, rfl⟩ : ∃ (p : Fin 2048) (q : Fin 64), j = ix2 p q := ⟨j 0, j 1, eq_ix2 j⟩
  rw [hpay]
  unfold proj
  exact Finset.sum_congr rfl fun k _ => congrArg₂ (· * ·) (hx k) (hw k)

/-- The printed index maps over the four grid points: the x window and the three output windows move one block of rows
    per point, the weight windows stay at block 0. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

section
variable (V : (c : Dev nD) → (b : Ref sig .tc) → Buf (Elt Ideal) ((c : Thread nD τ).loc b))

/-- What point t writes back of Q is block t of x · Wᵀ for its weight matrix. -/
theorem flushedQ (c : Dev nD) (t : Fin cfg0.N) :
    (dat0 V c).flushed 4 t = ((cfg0.win 4).blk t).view.read (Elt Ideal) (proj (V c main_arg0) (V c main_arg1)) := by
  show (cfg0.win 4).cut (grid0.coords t) ((dat0 V c).after 4 t) = _
  rw [after0_4]
  unfold out0_4
  rw [View.canon_unit_zero zero_offsets]
  simp only [View.ld_unit_zero (S := S2048x768) zero_offsets, View.ld_unit_zero (S := S64x768) zero_offsets]
  obtain ⟨a0, a1, b0, b1, c0, c1, d0, d1, e0, e1, f0, f1, g0, g1⟩ := idx_facts0 t
  funext j
  refine projEntry k0_pay2 payQ_apply (V c main_arg0) (V c main_arg1) (iblk0 V c 0 t) (iblk0 V c 1 t) j
    (((cfg0.win 4).blk t).view.emb j) (fun k => ?_) (fun k => ?_)
  · show V c main_arg0 (((cfg0.win 0).blk t).view.emb (ix2 (j 0) k))
      = V c main_arg0 (ix2 ((((cfg0.win 4).blk t).view.emb j) 0) k)
    refine congrArg _ (funext fun a => Fin.ext ?_)
    match a with
    | ⟨0, _⟩ =>
      show win0_0.index t (0 : Fin 2) * 2048 + 1 * (j 0).val = win0_4.index t (0 : Fin 2) * 2048 + 1 * (j 0).val
      omega
    | ⟨1, _⟩ =>
      show win0_0.index t (1 : Fin 2) * 768 + 1 * k.val = k.val
      omega
  · show V c main_arg1 (((cfg0.win 1).blk t).view.emb (ix2 (j 1) k))
      = V c main_arg1 (ix2 ((((cfg0.win 4).blk t).view.emb j) 1) k)
    refine congrArg _ (funext fun a => Fin.ext ?_)
    match a with
    | ⟨0, _⟩ =>
      show win0_1.index t (0 : Fin 2) * 64 + 1 * (j 1).val = win0_4.index t (1 : Fin 2) * 64 + 1 * (j 1).val
      omega
    | ⟨1, _⟩ =>
      show win0_1.index t (1 : Fin 2) * 768 + 1 * k.val = k.val
      omega

/-- A row of the array lies in point t's block of Q iff it is one of that block's 2048 rows. -/
theorem mem_blkQ (t : Fin cfg0.N) (i : S8192x64.Idx) :
    i ∈ ((cfg0.win 4).blk t).view.set ↔ ∀ a : Fin 2, win0_4.index t a * S2048x64.size a ≤ (i a).val
      ∧ (i a).val < win0_4.index t a * S2048x64.size a + S2048x64.size a := by
  show i ∈ ((View.whole main_v0_0).slice (win0_4.rect t)).set ↔ _
  rw [View.set_slice_whole, Rect.mem_set_unit]
  exact Iff.rfl

/-- The four blocks tile the 8192 rows: row r is in the block of point r / 2048. -/
theorem coverQ (i : S8192x64.Idx) :
    ∃ t : Fin cfg0.N, (cfg0.win 4).flush t = true ∧ i ∈ ((cfg0.win 4).blk t).view.set := by
  have hi0 : (i 0).val < 8192 := (i 0).isLt
  have hi1 : (i 1).val < 64 := (i 1).isLt
  have hN : grid0.N = 4 := N_0
  let t : Fin cfg0.N := ⟨(i 0).val / 2048, by show (i 0).val / 2048 < grid0.N; omega⟩
  obtain ⟨a0, a1, b0, b1, c0, c1, d0, d1, e0, e1, f0, f1, g0, g1⟩ := idx_facts0 t
  have ht : t.val = (i 0).val / 2048 := rfl
  refine ⟨t, flush0_4 t, ?_⟩
  rw [mem_blkQ]
  intro a
  match a with
  | ⟨0, _⟩ =>
    show win0_4.index t (0 : Fin 2) * 2048 ≤ (i 0).val ∧ (i 0).val < win0_4.index t (0 : Fin 2) * 2048 + 2048
    omega
  | ⟨1, _⟩ =>
    show win0_4.index t (1 : Fin 2) * 64 ≤ (i 1).val ∧ (i 1).val < win0_4.index t (1 : Fin 2) * 64 + 64
    omega

/-- After the first launch the Q array is the whole product. -/
theorem finalQ (c : Dev nD) : (dat0 V c).arrAt 4 cfg0.N = proj (V c main_arg0) (V c main_arg1) :=
  (dat0 V c).arrAt_eq_of_cover 4 (proj (V c main_arg0) (V c main_arg1)) (fun t _ => flushedQ V c t) coverQ

/-- What point t writes back of K is block t of x · Wᵀ for its weight matrix. -/
theorem flushedK (c : Dev nD) (t : Fin cfg0.N) :
    (dat0 V c).flushed 5 t = ((cfg0.win 5).blk t).view.read (Elt Ideal) (proj (V c main_arg0) (V c main_arg2)) := by
  show (cfg0.win 5).cut (grid0.coords t) ((dat0 V c).after 5 t) = _
  rw [after0_5]
  unfold out0_5
  rw [View.canon_unit_zero zero_offsets]
  simp only [View.ld_unit_zero (S := S2048x768) zero_offsets, View.ld_unit_zero (S := S64x768) zero_offsets]
  obtain ⟨a0, a1, b0, b1, c0, c1, d0, d1, e0, e1, f0, f1, g0, g1⟩ := idx_facts0 t
  funext j
  refine projEntry k0_pay3 payK_apply (V c main_arg0) (V c main_arg2) (iblk0 V c 0 t) (iblk0 V c 2 t) j
    (((cfg0.win 5).blk t).view.emb j) (fun k => ?_) (fun k => ?_)
  · show V c main_arg0 (((cfg0.win 0).blk t).view.emb (ix2 (j 0) k))
      = V c main_arg0 (ix2 ((((cfg0.win 5).blk t).view.emb j) 0) k)
    refine congrArg _ (funext fun a => Fin.ext ?_)
    match a with
    | ⟨0, _⟩ =>
      show win0_0.index t (0 : Fin 2) * 2048 + 1 * (j 0).val = win0_5.index t (0 : Fin 2) * 2048 + 1 * (j 0).val
      omega
    | ⟨1, _⟩ =>
      show win0_0.index t (1 : Fin 2) * 768 + 1 * k.val = k.val
      omega
  · show V c main_arg2 (((cfg0.win 2).blk t).view.emb (ix2 (j 1) k))
      = V c main_arg2 (ix2 ((((cfg0.win 5).blk t).view.emb j) 1) k)
    refine congrArg _ (funext fun a => Fin.ext ?_)
    match a with
    | ⟨0, _⟩ =>
      show win0_2.index t (0 : Fin 2) * 64 + 1 * (j 1).val = win0_5.index t (1 : Fin 2) * 64 + 1 * (j 1).val
      omega
    | ⟨1, _⟩ =>
      show win0_2.index t (1 : Fin 2) * 768 + 1 * k.val = k.val
      omega

/-- A row of the array lies in point t's block of K iff it is one of that block's 2048 rows. -/
theorem mem_blkK (t : Fin cfg0.N) (i : S8192x64.Idx) :
    i ∈ ((cfg0.win 5).blk t).view.set ↔ ∀ a : Fin 2, win0_5.index t a * S2048x64.size a ≤ (i a).val
      ∧ (i a).val < win0_5.index t a * S2048x64.size a + S2048x64.size a := by
  show i ∈ ((View.whole main_v0_1).slice (win0_5.rect t)).set ↔ _
  rw [View.set_slice_whole, Rect.mem_set_unit]
  exact Iff.rfl

/-- The four blocks tile the 8192 rows: row r is in the block of point r / 2048. -/
theorem coverK (i : S8192x64.Idx) :
    ∃ t : Fin cfg0.N, (cfg0.win 5).flush t = true ∧ i ∈ ((cfg0.win 5).blk t).view.set := by
  have hi0 : (i 0).val < 8192 := (i 0).isLt
  have hi1 : (i 1).val < 64 := (i 1).isLt
  have hN : grid0.N = 4 := N_0
  let t : Fin cfg0.N := ⟨(i 0).val / 2048, by show (i 0).val / 2048 < grid0.N; omega⟩
  obtain ⟨a0, a1, b0, b1, c0, c1, d0, d1, e0, e1, f0, f1, g0, g1⟩ := idx_facts0 t
  have ht : t.val = (i 0).val / 2048 := rfl
  refine ⟨t, flush0_5 t, ?_⟩
  rw [mem_blkK]
  intro a
  match a with
  | ⟨0, _⟩ =>
    show win0_5.index t (0 : Fin 2) * 2048 ≤ (i 0).val ∧ (i 0).val < win0_5.index t (0 : Fin 2) * 2048 + 2048
    omega
  | ⟨1, _⟩ =>
    show win0_5.index t (1 : Fin 2) * 64 ≤ (i 1).val ∧ (i 1).val < win0_5.index t (1 : Fin 2) * 64 + 64
    omega

/-- After the first launch the K array is the whole product. -/
theorem finalK (c : Dev nD) : (dat0 V c).arrAt 5 cfg0.N = proj (V c main_arg0) (V c main_arg2) :=
  (dat0 V c).arrAt_eq_of_cover 5 (proj (V c main_arg0) (V c main_arg2)) (fun t _ => flushedK V c t) coverK

/-- What point t writes back of V is block t of x · Wᵀ for its weight matrix. -/
theorem flushedV (c : Dev nD) (t : Fin cfg0.N) :
    (dat0 V c).flushed 6 t = ((cfg0.win 6).blk t).view.read (Elt Ideal) (proj (V c main_arg0) (V c main_arg3)) := by
  show (cfg0.win 6).cut (grid0.coords t) ((dat0 V c).after 6 t) = _
  rw [after0_6]
  unfold out0_6
  rw [View.canon_unit_zero zero_offsets]
  simp only [View.ld_unit_zero (S := S2048x768) zero_offsets, View.ld_unit_zero (S := S64x768) zero_offsets]
  obtain ⟨a0, a1, b0, b1, c0, c1, d0, d1, e0, e1, f0, f1, g0, g1⟩ := idx_facts0 t
  funext j
  refine projEntry k0_pay4 payV_apply (V c main_arg0) (V c main_arg3) (iblk0 V c 0 t) (iblk0 V c 3 t) j
    (((cfg0.win 6).blk t).view.emb j) (fun k => ?_) (fun k => ?_)
  · show V c main_arg0 (((cfg0.win 0).blk t).view.emb (ix2 (j 0) k))
      = V c main_arg0 (ix2 ((((cfg0.win 6).blk t).view.emb j) 0) k)
    refine congrArg _ (funext fun a => Fin.ext ?_)
    match a with
    | ⟨0, _⟩ =>
      show win0_0.index t (0 : Fin 2) * 2048 + 1 * (j 0).val = win0_6.index t (0 : Fin 2) * 2048 + 1 * (j 0).val
      omega
    | ⟨1, _⟩ =>
      show win0_0.index t (1 : Fin 2) * 768 + 1 * k.val = k.val
      omega
  · show V c main_arg3 (((cfg0.win 3).blk t).view.emb (ix2 (j 1) k))
      = V c main_arg3 (ix2 ((((cfg0.win 6).blk t).view.emb j) 1) k)
    refine congrArg _ (funext fun a => Fin.ext ?_)
    match a with
    | ⟨0, _⟩ =>
      show win0_3.index t (0 : Fin 2) * 64 + 1 * (j 1).val = win0_6.index t (1 : Fin 2) * 64 + 1 * (j 1).val
      omega
    | ⟨1, _⟩ =>
      show win0_3.index t (1 : Fin 2) * 768 + 1 * k.val = k.val
      omega

/-- A row of the array lies in point t's block of V iff it is one of that block's 2048 rows. -/
theorem mem_blkV (t : Fin cfg0.N) (i : S8192x64.Idx) :
    i ∈ ((cfg0.win 6).blk t).view.set ↔ ∀ a : Fin 2, win0_6.index t a * S2048x64.size a ≤ (i a).val
      ∧ (i a).val < win0_6.index t a * S2048x64.size a + S2048x64.size a := by
  show i ∈ ((View.whole main_v0_2).slice (win0_6.rect t)).set ↔ _
  rw [View.set_slice_whole, Rect.mem_set_unit]
  exact Iff.rfl

/-- The four blocks tile the 8192 rows: row r is in the block of point r / 2048. -/
theorem coverV (i : S8192x64.Idx) :
    ∃ t : Fin cfg0.N, (cfg0.win 6).flush t = true ∧ i ∈ ((cfg0.win 6).blk t).view.set := by
  have hi0 : (i 0).val < 8192 := (i 0).isLt
  have hi1 : (i 1).val < 64 := (i 1).isLt
  have hN : grid0.N = 4 := N_0
  let t : Fin cfg0.N := ⟨(i 0).val / 2048, by show (i 0).val / 2048 < grid0.N; omega⟩
  obtain ⟨a0, a1, b0, b1, c0, c1, d0, d1, e0, e1, f0, f1, g0, g1⟩ := idx_facts0 t
  have ht : t.val = (i 0).val / 2048 := rfl
  refine ⟨t, flush0_6 t, ?_⟩
  rw [mem_blkV]
  intro a
  match a with
  | ⟨0, _⟩ =>
    show win0_6.index t (0 : Fin 2) * 2048 ≤ (i 0).val ∧ (i 0).val < win0_6.index t (0 : Fin 2) * 2048 + 2048
    omega
  | ⟨1, _⟩ =>
    show win0_6.index t (1 : Fin 2) * 64 ≤ (i 1).val ∧ (i 1).val < win0_6.index t (1 : Fin 2) * 64 + 64
    omega

/-- After the first launch the V array is the whole product. -/
theorem finalV (c : Dev nD) : (dat0 V c).arrAt 6 cfg0.N = proj (V c main_arg0) (V c main_arg3) :=
  (dat0 V c).arrAt_eq_of_cover 6 (proj (V c main_arg0) (V c main_arg3)) (fun t _ => flushedV V c t) coverV

end

end Cert.KernelIdeal.Out

end
-- ==== Proof.Attention.lean ====
/-
  The second launch, whole: the output as a function of Q, K and V.

  The launch has 32 grid points; point t handles query rows 256·t … 256·t + 255 of Q with K and V whole (their windows
  sit at block 0 at every point), and writes back rows 256·t … of the output. Entry (p, d) of a written block is the
  attention row of Q's row 256·t + p at column d, so the block is the restriction of the whole attention; the 32 blocks
  tile the 8192 rows, so the output array ends as the whole attention of Q against K and V.
-/
import proofs.«158693_j26431228739824_2_alg».proof.Proof.Gen.KernelIdeal.Frame
import proofs.«158693_j26431228739824_2_alg».proof.Proof.AttnBody
import proofs.«158693_j26431228739824_2_alg».proof.Proof.Projection
import Idealize.ShloMosaic.Lib.Pipeline.Value

set_option maxRecDepth 16384

noncomputable section

namespace Cert.KernelIdeal.Out

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Attn (attn attnRow)

/-- A stored entry is the whole attention's entry, once the loaded query row is the array's query row, the loaded K
    and V are the arrays, and the column is the same. -/
theorem attnEntry (Q K V : S8192x64.Idx → EReal)
    (q0 : FVec Ideal S256x64 .bf16) (k0 v0 : FVec Ideal S8192x64 .bf16) (j : S256x64.Idx) (i : S8192x64.Idx)
    (hq : ∀ c : Fin 64, q0 (ix2 (j 0) c) = Q (ix2 (i 0) c)) (hk : k0 = K) (hv : v0 = V) (hd : (j 1).val = (i 1).val) :
    k1_pay1 (F := Ideal) q0 k0 v0 j = attn Q K V i := by
  obtain ⟨p, d, rfl⟩ : ∃ (p : Fin 256) (d : Fin 64), j = ix2 p d := ⟨j 0, j 1, eq_ix2 j⟩
  subst hk hv
  rw [payAttn_apply]
  unfold attn
  exact congrArg₂ (fun f e => attnRow f k0 v0 e) (funext hq) (Fin.ext hd)

/-- The printed index maps over the 32 grid points: the Q window and the output window move one block of 256 rows per
    point, the K and V windows stay at block 0. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section
variable (V : (c : Dev nD) → (b : Ref sig .tc) → Buf (Elt Ideal) ((c : Thread nD τ).loc b))

/-- What point t writes back is block t of the attention of the Q, K, V arrays as the launch finds them. -/
theorem flushedOut (c : Dev nD) (t : Fin cfg1.N) :
    (dat1 V c).flushed 3 t
      = ((cfg1.win 3).blk t).view.read (Elt Ideal) (attn (V c main_v0_0) (V c main_v0_1) (V c main_v0_2)) := by
  show (cfg1.win 3).cut (grid1.coords t) ((dat1 V c).after 3 t) = _
  rw [after1_3]
  unfold out1_3
  rw [View.canon_unit_zero zero_offsets]
  simp only [View.ld_unit_zero (S := S256x64) zero_offsets, View.ld_unit_zero (S := S8192x64) zero_offsets]
  obtain ⟨a0, a1, b0, b1, c0, c1, d0, d1⟩ := idx_facts1 t
  funext j
  refine attnEntry (V c main_v0_0) (V c main_v0_1) (V c main_v0_2) (iblk1 V c 0 t) (iblk1 V c 1 t) (iblk1 V c 2 t) j
    (((cfg1.win 3).blk t).view.emb j) (fun k => ?_) (funext fun y => ?_) (funext fun y => ?_) ?_
  · show V c main_v0_0 (((cfg1.win 0).blk t).view.emb (ix2 (j 0) k))
      = V c main_v0_0 (ix2 ((((cfg1.win 3).blk t).view.emb j) 0) k)
    refine congrArg _ (funext fun a => Fin.ext ?_)
    match a with
    | ⟨0, _⟩ =>
      show win1_0.index t (0 : Fin 2) * 256 + 1 * (j 0).val = win1_3.index t (0 : Fin 2) * 256 + 1 * (j 0).val
      omega
    | ⟨1, _⟩ =>
      show win1_0.index t (1 : Fin 2) * 64 + 1 * k.val = k.val
      omega
  · show V c main_v0_1 (((cfg1.win 1).blk t).view.emb y) = V c main_v0_1 y
    refine congrArg _ (funext fun a => Fin.ext ?_)
    match a with
    | ⟨0, _⟩ =>
      show win1_1.index t (0 : Fin 2) * 8192 + 1 * (y 0).val = (y 0).val
      omega
    | ⟨1, _⟩ =>
      show win1_1.index t (1 : Fin 2) * 64 + 1 * (y 1).val = (y 1).val
      omega
  · show V c main_v0_2 (((cfg1.win 2).blk t).view.emb y) = V c main_v0_2 y
    refine congrArg _ (funext fun a => Fin.ext ?_)
    match a with
    | ⟨0, _⟩ =>
      show win1_2.index t (0 : Fin 2) * 8192 + 1 * (y 0).val = (y 0).val
      omega
    | ⟨1, _⟩ =>
      show win1_2.index t (1 : Fin 2) * 64 + 1 * (y 1).val = (y 1).val
      omega
  · show (j 1).val = win1_3.index t (1 : Fin 2) * 64 + 1 * (j 1).val
    omega

/-- A row of the array lies in point t's output block iff it is one of that block's 256 rows. -/
theorem mem_blkOut (t : Fin cfg1.N) (i : S8192x64.Idx) :
    i ∈ ((cfg1.win 3).blk t).view.set ↔ ∀ a : Fin 2, win1_3.index t a * S256x64.size a ≤ (i a).val
      ∧ (i a).val < win1_3.index t a * S256x64.size a + S256x64.size a := by
  show i ∈ ((View.whole main_v1).slice (win1_3.rect t)).set ↔ _
  rw [View.set_slice_whole, Rect.mem_set_unit]
  exact Iff.rfl

/-- The 32 blocks tile the 8192 rows: row r is in the block of point r / 256. -/
theorem coverOut (i : S8192x64.Idx) :
    ∃ t : Fin cfg1.N, (cfg1.win 3).flush t = true ∧ i ∈ ((cfg1.win 3).blk t).view.set := by
  have hi0 : (i 0).val < 8192 := (i 0).isLt
  have hi1 : (i 1).val < 64 := (i 1).isLt
  have hN : grid1.N = 32 := N_1
  let t : Fin cfg1.N := ⟨(i 0).val / 256, by show (i 0).val / 256 < grid1.N; omega⟩
  obtain ⟨a0, a1, b0, b1, c0, c1, d0, d1⟩ := idx_facts1 t
  have ht : t.val = (i 0).val / 256 := rfl
  refine ⟨t, flush1_3 t, ?_⟩
  rw [mem_blkOut]
  intro a
  match a with
  | ⟨0, _⟩ =>
    show win1_3.index t (0 : Fin 2) * 256 ≤ (i 0).val ∧ (i 0).val < win1_3.index t (0 : Fin 2) * 256 + 256
    omega
  | ⟨1, _⟩ =>
    show win1_3.index t (1 : Fin 2) * 64 ≤ (i 1).val ∧ (i 1).val < win1_3.index t (1 : Fin 2) * 64 + 64
    omega

/-- After the second launch the output array is the whole attention of the Q, K, V arrays it found. -/
theorem finalOut (c : Dev nD) :
    (dat1 V c).arrAt 3 cfg1.N = attn (V c main_v0_0) (V c main_v0_1) (V c main_v0_2) :=
  (dat1 V c).arrAt_eq_of_cover 3 (attn (V c main_v0_0) (V c main_v0_1) (V c main_v0_2))
    (fun t _ => flushedOut V c t) coverOut

end

/-! ## The two launches composed -/

variable (m : (ℓ : Loc nD τ sig) → Buf (Elt Ideal) ℓ) (ρ : Dev nD → PrngReg)

/-- THE KERNEL'S VALUE: after both launches the result array is the whole computation of the four arguments as
    launched — the second launch finds Q, K, V at what the first left, and the first finds the arguments as launched. -/
theorem result_eq (c : Dev nD) :
    W2 m ρ c (Proc.devRef .tc main_v1)
      = Cert.Attn.spec (m ((c : Thread nD τ).loc main_arg0)) (m ((c : Thread nD τ).loc main_arg1))
          (m ((c : Thread nD τ).loc main_arg2)) (m ((c : Thread nD τ).loc main_arg3)) := by
  refine (W2_arr m ρ c 3).trans ?_
  rw [finalOut (V1 m ρ) c]
  unfold Cert.Attn.spec
  have hQ : V1 m ρ c main_v0_0 = Cert.Attn.proj (m ((c : Thread nD τ).loc main_arg0)) (m ((c : Thread nD τ).loc main_arg1)) :=
    (W1_arr m ρ c 4).trans (finalQ (V0 m ρ) c)
  have hK : V1 m ρ c main_v0_1 = Cert.Attn.proj (m ((c : Thread nD τ).loc main_arg0)) (m ((c : Thread nD τ).loc main_arg2)) :=
    (W1_arr m ρ c 5).trans (finalK (V0 m ρ) c)
  have hV : V1 m ρ c main_v0_2 = Cert.Attn.proj (m ((c : Thread nD τ).loc main_arg0)) (m ((c : Thread nD τ).loc main_arg3)) :=
    (W1_arr m ρ c 6).trans (finalV (V0 m ρ) c)
  rw [hQ, hK, hV]

end Cert.KernelIdeal.Out

end
-- ==== Proof.Reals.lean ====
/-
  The arithmetic both programs share, on the extended reals, with no program in sight.

  An attention row is  out = Σ_j w_j · v_j  with weights  w_j = e_j / l,  e_j = exp (s_j − max_j s_j),  l = Σ_j e_j.
  One program divides every weight by `l` before the product with `v`; the other forms  Σ_j e_j · v_j  first and
  divides the sum once. On the extended reals a factor moves across a sum only where nothing is infinite, so the
  law is stated for entries that are real numbers and a divisor that is a nonzero real — which is what finite
  inputs give: sums and products of reals are real, the maximum of finitely many reals over a nonempty index set
  is one of them, `exp` of a real is a positive real, and a nonempty sum of positive reals is positive.

  The two scale factors are the same number: the word `0x3E000000` is 2⁻³ = 1/8 exactly, and √64 = 8 exactly, so
  dividing by √64 is multiplying by 1/8 on every extended real.
-/
import Idealize.ShloMosaic.PureOps.Ideal
import Idealize.ShloMosaic.PureOps.Ideal.Laws

noncomputable section

namespace Cert.Attn

open Idealize.ShloMosaic

/-! ## Extended reals that are real numbers -/

/-- `x` is (the image of) a real number: neither infinity. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A finite sum of reals, formed in the extended reals, is the real sum. -/
theorem sum_coe {ι : Type} (s : Finset ι) (f : ι → ℝ) :
    ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

theorem IsReal.sum {ι : Type} (s : Finset ι) (f : ι → EReal) (h : ∀ k ∈ s, IsReal (f k)) :
    IsReal (∑ k ∈ s, f k) := by
  classical
  induction s using Finset.induction_on with
  | empty => simpa using IsReal.zero
  | insert a s ha ih =>
    rw [Finset.sum_insert ha]
    exact (h a (Finset.mem_insert_self a s)).add (ih fun k hk => h k (Finset.mem_insert_of_mem hk))

/-- The maximum of finitely many reals over a nonempty index set, folded from −∞, is a real: it is below +∞ because
    every entry is, and above −∞ because the first entry is. -/
theorem IsReal.fold_max {n : ℕ} (hn : 0 < n) (f : Fin n → EReal) (h : ∀ j, IsReal (f j)) :
    IsReal ((Finset.univ : Finset (Fin n)).fold max ⊥ f) := by
  have h1 : (Finset.univ : Finset (Fin n)).fold max ⊥ f < ⊤ := by
    rw [Finset.fold_max_lt]
    exact ⟨bot_lt_top, fun j _ => by obtain ⟨r, hr⟩ := h j; rw [hr]; exact EReal.coe_lt_top r⟩
  have h2 : ⊥ < (Finset.univ : Finset (Fin n)).fold max ⊥ f := by
    rw [Finset.lt_fold_max]
    right
    refine ⟨⟨0, hn⟩, Finset.mem_univ _, ?_⟩
    obtain ⟨r, hr⟩ := h ⟨0, hn⟩; rw [hr]; exact EReal.bot_lt_coe r
  exact ⟨_, (EReal.coe_toReal h1.ne h2.ne').symm⟩

/-! ## `exp` of a difference of reals -/

theorem exp_coe_sub (a b : ℝ) : Ideal.exp ((a : EReal) - (b : EReal)) = ((Real.exp (a - b) : ℝ) : EReal) := by
  rw [← EReal.coe_sub]; rfl

/-- The softmax denominator of a row of reals is a NONZERO real: a nonempty sum of positive reals. -/
theorem sum_exp_pos {n : ℕ} (hn : 0 < n) (s : Fin n → ℝ) (M : ℝ) :
    ∃ L : ℝ, L ≠ 0 ∧ ∑ j, Ideal.exp ((s j : EReal) - (M : EReal)) = (L : EReal) := by
  refine ⟨∑ j, Real.exp (s j - M), ?_, ?_⟩
  · haveI : Nonempty (Fin n) := ⟨⟨0, hn⟩⟩
    exact (Finset.sum_pos (fun j _ => Real.exp_pos _) Finset.univ_nonempty).ne'
  · simp only [exp_coe_sub]; exact sum_coe _ _

/-! ## The law: dividing each weight, or dividing the sum -/

/-- For real weights `e`, real values `v` and a nonzero real divisor `l`:  Σ_j (e_j / l) · v_j = (Σ_j e_j · v_j) / l. -/
theorem sum_div_mul {n : ℕ} (e v : Fin n → EReal) (l : EReal) (he : ∀ j, IsReal (e j)) (hv : ∀ j, IsReal (v j))
    (hl : ∃ L : ℝ, L ≠ 0 ∧ l = (L : EReal)) :
    ∑ j, Ideal.div (e j) l * v j = Ideal.div (∑ j, e j * v j) l := by
  obtain ⟨L, hL, rfl⟩ := hl
  choose E hE using he
  choose V hV using hv
  simp only [Ideal.div_coe hL, hE, hV, ← EReal.coe_mul]
  rw [sum_coe, sum_coe, ← EReal.coe_mul]
  congr 1
  rw [Finset.sum_mul]
  exact Finset.sum_congr rfl fun j _ => by ring

/-! ## The literal words -/

/-- `64.0`. -/
theorem ofBits_64 : Ideal.ofBits .f32 0x42800000#32 = ((64 : ℝ) : EReal) := by
  simp [Ideal.ofBits, Ideal.ieee, -EReal.coe_mul]; norm_num

/-- `0.125` is 2⁻³ = 1/8, exactly. -/
theorem ofBits_eighth : Ideal.ofBits .f32 0x3E000000#32 = ((1 / 8 : ℝ) : EReal) := by
  simp [Ideal.ofBits, Ideal.ieee, -EReal.coe_mul]; norm_num

/-- The all-ones exponent with the sign set and a zero fraction is −∞, the lattice's bottom. -/
theorem ofBits_neg_inf : Ideal.ofBits .f32 0xFF800000#32 = ⊥ := by
  simp [Ideal.ofBits, Ideal.ieee]

theorem sqrt_64 : Ideal.sqrt ((64 : ℝ) : EReal) = ((8 : ℝ) : EReal) := by
  show (if (64 : ℝ) < 0 then ⊥ else ((Real.sqrt 64 : ℝ) : EReal)) = _
  rw [if_neg (by norm_num)]
  congr 1
  rw [show (64 : ℝ) = 8 ^ 2 by norm_num]
  exact Real.sqrt_sq (by norm_num)

/-- Dividing by √64 is multiplying by 0.125, at the infinities too. -/
theorem div_sqrt_64 (x : EReal) :
    Ideal.div x (Ideal.sqrt (Ideal.ofBits .f32 0x42800000#32)) = x * Ideal.ofBits .f32 0x3E000000#32 := by
  rw [ofBits_64, sqrt_64, ofBits_eighth, Ideal.div_coe (by norm_num)]

end Cert.Attn

end
-- ==== Proof.SpecReal.lean ====
/-
  The specification on real inputs: where the law that joins the two programs applies.

  With real x and real weight matrices every entry of Q, K and V is a real (a finite sum of products of reals), so
  every score is a real, the row's maximum is a real (the largest of 8192 reals), every weight exp (s_j − M) is a
  positive real, and their sum is a positive real. So each weight may be divided by the sum before the product with V,
  or the weighted sum divided once afterwards: the two agree.
-/
import proofs.«158693_j26431228739824_2_alg».proof.Proof.Spec
import proofs.«158693_j26431228739824_2_alg».proof.Proof.Reals

noncomputable section

namespace Cert.Attn

open Idealize.ShloMosaic Idealize.ShloMosaic.ValueIdx

theorem isReal_proj (x : Sx.Idx → EReal) (w : Sw.Idx → EReal) (hx : ∀ i, IsReal (x i)) (hw : ∀ i, IsReal (w i))
    (i : So.Idx) : IsReal (proj x w i) :=
  IsReal.sum _ _ fun k _ => (hx _).mul (hw _)

theorem isReal_score (qrow : Fin 64 → EReal) (K : So.Idx → EReal) (hq : ∀ c, IsReal (qrow c)) (hK : ∀ i, IsReal (K i))
    (j : Fin 8192) : IsReal (score qrow K j) := by
  unfold score
  rw [ofBits_eighth]
  exact (IsReal.sum _ _ fun c _ => (hq c).mul (hK _)).mul (IsReal.coe _)

theorem isReal_rowMax (qrow : Fin 64 → EReal) (K : So.Idx → EReal) (hq : ∀ c, IsReal (qrow c)) (hK : ∀ i, IsReal (K i)) :
    IsReal (rowMax qrow K) := by
  unfold rowMax
  rw [ofBits_neg_inf]
  exact IsReal.fold_max (by norm_num) _ (isReal_score qrow K hq hK)

/-- THE ROW LAW, in the form the reference computes it: each weight divided by the sum of the weights (a sum started
    from zero), then the product with V's column summed — this is the specification's entry, which divides once. -/
theorem sum_div_weights (qrow : Fin 64 → EReal) (K V : So.Idx → EReal) (d : Fin 64)
    (hq : ∀ c, IsReal (qrow c)) (hK : ∀ i, IsReal (K i)) (hV : ∀ i, IsReal (V i)) :
    ∑ k : Fin 8192, Ideal.div (weight qrow K k) (0 + ∑ j : Fin 8192, weight qrow K j) * V (ix2 k d)
      = attnRow qrow K V d := by
  rw [zero_add]
  unfold attnRow
  obtain ⟨M, hM⟩ := isReal_rowMax qrow K hq hK
  choose s hs using isReal_score qrow K hq hK
  have hw : ∀ k, weight qrow K k = ((Real.exp (s k - M) : ℝ) : EReal) := fun k => by
    unfold weight; rw [hs k, hM, exp_coe_sub]
  have hl : ∃ L : ℝ, L ≠ 0 ∧ ∑ j : Fin 8192, weight qrow K j = (L : EReal) := by
    obtain ⟨L, hL, e⟩ := sum_exp_pos (n := 8192) (by norm_num) s M
    refine ⟨L, hL, ?_⟩
    rw [← e]
    exact Finset.sum_congr rfl fun j _ => by rw [hw j, exp_coe_sub]
  exact sum_div_mul (fun k => weight qrow K k) (fun k => V (ix2 k d)) _ (fun k => ⟨_, hw k⟩) (fun k => hV _) hl

end Cert.Attn

end
-- ==== Proof.RefValue.lean ====
/-
  The reference computes the specification, on real inputs.

  Read one operation at a time, the reference forms Q, K, V as the three products, the scores Q · Kᵀ divided by √64
  (multiplied by 0.125: the same number), each row's maximum (the larger of −∞ and the row's fold from −∞: the fold
  itself), the exponentials of the scores less the maximum, each row's sum started from zero, each exponential divided
  by its row's sum, and the product of those quotients with V. The last two steps divide before summing where the
  specification divides once after; on real inputs the two agree.
-/
import proofs.«158693_j26431228739824_2_alg».proof.Proof.Gen.ReferenceIdeal.Read
import proofs.«158693_j26431228739824_2_alg».proof.Proof.SpecReal
import Idealize.ShloMosaic.PureOps.Reduce

noncomputable section

namespace Cert.ReferenceIdeal.RefValue

open Cert.ReferenceIdeal Cert.ReferenceIdeal.Gen Cert.ReferenceIdeal.Read
open Idealize.ShloMosaic Idealize.ShloMosaic.ValueIdx Idealize.ShloMosaic.StableHlo
open Cert.Attn

variable (x0 : (⟨S8192x768, .f32⟩ : BufTy).Contents (Elt Ideal)) (x1 x2 x3 : (⟨S64x768, .f32⟩ : BufTy).Contents (Elt Ideal))

/-- The first product is Q. -/
theorem q_eq : val_main_v1 (F := Ideal) x0 x1 = proj x0 x1 := by
  funext i
  rw [val_main_v1_apply]
  unfold proj
  refine Finset.sum_congr rfl fun k _ => ?_
  rw [val_main_v0_apply]
  exact congrArg₂ (· * ·) (congrArg x0 (funext fun a => Fin.ext (by match a with | ⟨0, _⟩ => rfl | ⟨1, _⟩ => rfl))) (congrArg x1 (funext fun a => Fin.ext (by match a with | ⟨0, _⟩ => rfl | ⟨1, _⟩ => rfl)))

/-- The second is K. -/
theorem k_eq : val_main_v3 (F := Ideal) x0 x2 = proj x0 x2 := by
  funext i
  rw [val_main_v3_apply]
  unfold proj
  refine Finset.sum_congr rfl fun k _ => ?_
  rw [val_main_v2_apply]
  exact congrArg₂ (· * ·) (congrArg x0 (funext fun a => Fin.ext (by match a with | ⟨0, _⟩ => rfl | ⟨1, _⟩ => rfl))) (congrArg x2 (funext fun a => Fin.ext (by match a with | ⟨0, _⟩ => rfl | ⟨1, _⟩ => rfl)))

/-- The third is V. -/
theorem v_eq : val_main_v5 (F := Ideal) x0 x3 = proj x0 x3 := by
  funext i
  rw [val_main_v5_apply]
  unfold proj
  refine Finset.sum_congr rfl fun k _ => ?_
  rw [val_main_v4_apply]
  exact congrArg₂ (· * ·) (congrArg x0 (funext fun a => Fin.ext (by match a with | ⟨0, _⟩ => rfl | ⟨1, _⟩ => rfl))) (congrArg x3 (funext fun a => Fin.ext (by match a with | ⟨0, _⟩ => rfl | ⟨1, _⟩ => rfl)))

/-- The quotient by √64 of row r's product with key row k is the specification's scaled score. -/
theorem score_eq (r k : Fin 8192) :
    val_main_v10 (F := Ideal) x0 x1 x2 (ix2 r k) = score (fun c => proj x0 x1 (ix2 r c)) (proj x0 x2) k := by
  rw [val_main_v10_apply, val_main_v7_apply, val_main_v9_apply, val_main_v8_apply, val_main_cst_apply]
  simp only [Ideal.hostDivf_def, Ideal.hostUnary_sqrt_def, Ideal.ofBits_def]
  rw [div_sqrt_64]
  unfold score
  refine congrArg (· * Ideal.ofBits .f32 0x3E000000#32) (Finset.sum_congr rfl fun c _ => ?_)
  rw [val_main_v6_apply, q_eq, k_eq]
  exact congrArg₂ (· * ·) (congrArg (proj x0 x1) (funext fun a => Fin.ext (by match a with | ⟨0, _⟩ => rfl | ⟨1, _⟩ => rfl))) (congrArg (proj x0 x2) (funext fun a => Fin.ext (by match a with | ⟨0, _⟩ => rfl | ⟨1, _⟩ => rfl)))

/-- Row r's maximum: the fold from −∞, the outer maximum with −∞ changing nothing. -/
theorem rowMax_eq (r : Fin 8192) :
    val_main_v13 (F := Ideal) x0 x1 x2 (ix1 r) = rowMax (fun c => proj x0 x1 (ix2 r c)) (proj x0 x2) := by
  rw [val_main_v13_apply, val_main_v12_apply, val_main_cst_1_apply]
  unfold val_main_v11
  rw [Host.reduce_eq_fold_single FloatOps.maximumf _ _ reducesTo_S8192x8192_S8192_d1 (by decide) h_S_]
  have hf : (val_main_v10 (F := Ideal) x0 x1 x2 ∘ (by decide : S8192x8192.Reduces [1] S8192).lift (ix1 r))
      = score (fun c => proj x0 x1 (ix2 r c)) (proj x0 x2) :=
    funext fun k => (congrArg (val_main_v10 (F := Ideal) x0 x1 x2) (funext fun a => Fin.ext (by match a with | ⟨0, _⟩ => rfl | ⟨1, _⟩ => rfl))).trans (score_eq x0 x1 x2 r k)
  rw [hf]
  unfold rowMax
  show max (Ideal.ofBits .f32 0xFF800000#32)
    ((Finset.univ : Finset (Fin 8192)).fold max (Ideal.ofBits .f32 0xFF800000#32) _) = _
  rw [ofBits_neg_inf]
  exact max_eq_right bot_le

/-- The exponential at (r, k) is the specification's weight. -/
theorem weight_eq (r k : Fin 8192) :
    val_main_v17 (F := Ideal) x0 x1 x2 (ix2 r k) = weight (fun c => proj x0 x1 (ix2 r c)) (proj x0 x2) k := by
  rw [val_main_v17_apply, val_main_v16_apply, val_main_v15_apply, val_main_v14_apply]
  rw [show idx_main_v14 (idx_main_v15 (ix2 r k)) = ix1 r from (funext fun a => Fin.ext (by match a with | ⟨0, _⟩ => rfl))]
  rw [rowMax_eq, score_eq]
  rfl

/-- Row r's sum of the exponentials, started from zero. -/
theorem rowSum_eq (r : Fin 8192) :
    val_main_v18 (F := Ideal) x0 x1 x2 (ix1 r)
      = 0 + ∑ k : Fin 8192, weight (fun c => proj x0 x1 (ix2 r c)) (proj x0 x2) k := by
  rw [val_main_v18_apply, val_main_cst_2_apply]
  simp only [Ideal.ofBits_def, Ideal.ofBits_zero_f32]
  refine congrArg (0 + ·) (Finset.sum_congr rfl fun k _ => ?_)
  exact (congrArg (val_main_v17 (F := Ideal) x0 x1 x2) (funext fun a => Fin.ext (by match a with | ⟨0, _⟩ => rfl | ⟨1, _⟩ => rfl))).trans (weight_eq x0 x1 x2 r k)

/-- The normalised weight at (r, k). -/
theorem softmax_eq (r k : Fin 8192) :
    val_main_v21 (F := Ideal) x0 x1 x2 (ix2 r k)
      = Ideal.div (weight (fun c => proj x0 x1 (ix2 r c)) (proj x0 x2) k)
          (0 + ∑ j : Fin 8192, weight (fun c => proj x0 x1 (ix2 r c)) (proj x0 x2) j) := by
  rw [val_main_v21_apply, val_main_v20_apply, val_main_v19_apply]
  rw [show idx_main_v19 (idx_main_v20 (ix2 r k)) = ix1 r from (funext fun a => Fin.ext (by match a with | ⟨0, _⟩ => rfl))]
  rw [rowSum_eq, weight_eq]
  rfl

/-- THE REFERENCE IS THE SPECIFICATION, where every argument entry is a real number. -/
theorem result_eq (h0 : ∀ i, IsReal (x0 i)) (h1 : ∀ i, IsReal (x1 i)) (h2 : ∀ i, IsReal (x2 i)) (h3 : ∀ i, IsReal (x3 i)) :
    val_main_v22 (F := Ideal) x0 x1 x2 x3 = spec x0 x1 x2 x3 := by
  funext i
  obtain ⟨r, d, rfl⟩ : ∃ (r : Fin 8192) (d : Fin 64), i = ix2 r d := ⟨i 0, i 1, eq_ix2 i⟩
  rw [val_main_v22_apply]
  have hterm : ∀ k : Fin 8192,
      (val_main_v21 (F := Ideal) x0 x1 x2) (lidx_main_v22 (ix2 r d) k) * (val_main_v5 (F := Ideal) x0 x3) (ridx_main_v22 (ix2 r d) k)
        = Ideal.div (weight (fun c => proj x0 x1 (ix2 r c)) (proj x0 x2) k)
            (0 + ∑ j : Fin 8192, weight (fun c => proj x0 x1 (ix2 r c)) (proj x0 x2) j) * proj x0 x3 (ix2 k d) := fun k =>
    congrArg₂ (· * ·)
      ((congrArg (val_main_v21 (F := Ideal) x0 x1 x2) (funext fun a => Fin.ext (by match a with | ⟨0, _⟩ => rfl | ⟨1, _⟩ => rfl))).trans (softmax_eq x0 x1 x2 r k))
      ((congrFun (v_eq x0 x3) _).trans (congrArg (proj x0 x3) (funext fun a => Fin.ext (by match a with | ⟨0, _⟩ => rfl | ⟨1, _⟩ => rfl))))
  rw [Finset.sum_congr rfl fun k _ => hterm k]
  exact sum_div_weights _ _ _ d (fun c => isReal_proj x0 x1 h0 h1 _) (isReal_proj x0 x2 h0 h2) (isReal_proj x0 x3 h0 h3)

end Cert.ReferenceIdeal.RefValue

end
-- ==== Proof.Finite.lean ====
/-
  Finite inputs are arrays of real numbers.

  The precondition says, of each of the four arguments, that every entry's absolute value is below +∞, all four
  conjoined. An extended real whose absolute value max(x, −x) is below +∞ is neither infinity, so it is a real number.
-/
import proofs.«158693_j26431228739824_2_alg».proof.Pre_finite_inputs
import proofs.«158693_j26431228739824_2_alg».proof.Proof.Gen.Pre_finite_inputs
import proofs.«158693_j26431228739824_2_alg».proof.Proof.Reals
import Idealize.ShloMosaic.Lib.ReduceAll
import Idealize.ShloMosaic.Lib.ValueIdx
import Idealize.ShloMosaic.PureOps.Ideal.Laws

noncomputable section

namespace Cert.Attn

open Idealize.ShloMosaic Cert.Pre_finite_inputs

instance : Subsingleton S_.Idx := ⟨fun a b => funext fun d => d.elim0⟩

/-- The word `0x7F800000` is +∞. -/
theorem ofBits_pos_inf : Ideal.ofBits .f32 0x7F800000#32 = ⊤ := by
  simp [Ideal.ofBits, Ideal.ieee]

/-- |x| < +∞ makes x a real number. -/
theorem isReal_of_abs_lt (x : EReal) (h : Ideal.cmp .olt (max x (-x)) (Ideal.ofBits .f32 0x7F800000#32) = 1#1) :
    IsReal x := by
  rw [ofBits_pos_inf] at h
  have hlt : max x (-x) < ⊤ := by
    by_contra hn
    simp [Ideal.cmp, hn] at h
  induction x using EReal.rec with
  | bot => simp at hlt
  | coe r => exact ⟨r, rfl⟩
  | top => simp at hlt

/-- Under the precondition every entry of every argument is a real number. -/
theorem real_of_pre (x0 : FVec Ideal S8192x768 .f32) (x1 x2 x3 : FVec Ideal S64x768 .f32)
    (h : Cert.Pre_finite_inputs.fn (F := Ideal) x0 x1 x2 x3 = fun _ => 1#1) :
    (∀ i, IsReal (x0 i)) ∧ (∀ i, IsReal (x1 i)) ∧ (∀ i, IsReal (x2 i)) ∧ (∀ i, IsReal (x3 i)) := by
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨fun i => isReal_of_abs_lt _ (Host.reduce_andi_all _ _ _ _ _ h1 i),
    fun i => isReal_of_abs_lt _ (Host.reduce_andi_all _ _ _ _ _ h2 i),
    fun i => isReal_of_abs_lt _ (Host.reduce_andi_all _ _ _ _ _ h3 i),
    fun i => isReal_of_abs_lt _ (Host.reduce_andi_all _ _ _ _ _ h4 i)⟩

end Cert.Attn

end
-- ==== Proof.lean ====
/-
  Single-head attention, computed two ways, is one function on the extended reals when the inputs are finite.

  The arguments are x (8192 × 768) and three weight matrices (64 × 768 each). Both programs form Q = x · W_Qᵀ,
  K = x · W_Kᵀ, V = x · W_Vᵀ, the scores Q · Kᵀ scaled to the head width 64, a softmax along each row, and the
  product with V.

  The kernel does it in two launches. The first writes Q, K and V, 2048 rows per grid point, as bf16 — no change on
  extended reals. The second takes 256 query rows per grid point against all of K and V: it multiplies the scores by
  0.125, subtracts each row's maximum, exponentiates, multiplies the exponentials by V and divides each row of that
  product ONCE by the row's sum of exponentials. The reference divides the scores by √64, and divides EVERY
  exponential by its row's sum before the product with V.

  The scale is the same number (0.125 = 1/8 = 1/√64, exactly). Dividing before or after the sum is the same on real
  numbers with a nonzero divisor, and finite inputs make every quantity in sight a real: products and finite sums of
  reals are real, a row's maximum is one of its 8192 real scores, the exponentials are positive reals and so is their
  sum. Sums in a different order or tiling are the same sums.

  Each program also runs to the end without a fault and leaves its arguments as it found them; and the idealized
  kernel is the kernel's own text read on the extended reals, with no operation rewritten.
-/
import proofs.«158693_j26431228739824_2_alg».proof.Defs
import proofs.«158693_j26431228739824_2_alg».proof.Proof.Gen.Kernel
import proofs.«158693_j26431228739824_2_alg».proof.Proof.Gen.Kernel.Skeleton
import proofs.«158693_j26431228739824_2_alg».proof.Proof.Gen.Kernel.Launch
import proofs.«158693_j26431228739824_2_alg».proof.Proof.Gen.Kernel.Points
import proofs.«158693_j26431228739824_2_alg».proof.Proof.Gen.Kernel.Frame
import proofs.«158693_j26431228739824_2_alg».proof.Proof.Gen.KernelIdeal
import proofs.«158693_j26431228739824_2_alg».proof.Proof.Gen.KernelIdeal.Skeleton
import proofs.«158693_j26431228739824_2_alg».proof.Proof.Gen.KernelIdeal.Launch
import proofs.«158693_j26431228739824_2_alg».proof.Proof.Gen.KernelIdeal.Points
import proofs.«158693_j26431228739824_2_alg».proof.Proof.Gen.KernelIdeal.Frame
import proofs.«158693_j26431228739824_2_alg».proof.Proof.Gen.ReferenceIdeal
import proofs.«158693_j26431228739824_2_alg».proof.Proof.Gen.ReferenceIdeal.Run
import proofs.«158693_j26431228739824_2_alg».proof.Proof.Gen.ReferenceIdeal.Read
import proofs.«158693_j26431228739824_2_alg».proof.Proof.Gen.Pre_finite_inputs
import proofs.«158693_j26431228739824_2_alg».proof.Proof.KernelRun
import proofs.«158693_j26431228739824_2_alg».proof.Proof.Attention
import proofs.«158693_j26431228739824_2_alg».proof.Proof.RefValue
import proofs.«158693_j26431228739824_2_alg».proof.Proof.Finite
import Idealize.ShloMosaic.Adequacy
import Idealize.ShloMosaic.Init

noncomputable section

namespace Cert.Proof

open Idealize.ShloMosaic Idealize.SL.Sem

/-- The kernel as printed runs to the end and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten when it was read on the extended reals: nothing to restate. -/
theorem preserves : Cert.preserves_Kernel_KernelIdeal := trivial

/-- From memories agreeing on finite arguments both programs end with the result array at the one specification of
    those arguments: the kernel because its two launches compose to it on any extended reals, the reference because
    on real numbers dividing every weight by the row's sum is dividing the weighted sum once. -/
theorem algebraic : Cert.algebraic_KernelIdeal_ReferenceIdeal := by
  intro m ρ m' ρ' hpre hagree
  refine ⟨fun c => Cert.Attn.spec
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Out.result_eq m ρ c), (h c).2⟩)
      (Cert.KernelIdeal.Out.run (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v22_eq _ _ _ _).trans ?_
    rw [(hagree c).1, (hagree c).2.1, (hagree c).2.2.1, (hagree c).2.2.2]
    obtain ⟨r0, r1, r2, r3⟩ := Cert.Attn.real_of_pre _ _ _ _ (hpre c)
    exact Cert.ReferenceIdeal.RefValue.result_eq _ _ _ _ r0 r1 r2 r3

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
